-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S500000 : Shape := ⟨1, ![500000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg10
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S500000 32) (main_arg2 : IVec S500000 32) (main_arg3 : IVec S500000 32) (main_arg4 : IVec S500000 32) (main_arg5 : IVec S500000 32) (main_arg6 : IVec S500000 32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg7
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg9
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg10 main_arg11 main_arg12 main_v13 main_v16
-- ==== Kernel.lean ====
abbrev S50000x256 : Shape := ⟨2, ![50000, 256]⟩
abbrev S500000 : Shape := ⟨1, ![500000]⟩
abbrev S256x256 : Shape := ⟨2, ![256, 256]⟩
abbrev S256 : Shape := ⟨1, ![256]⟩
abbrev S1x256x256 : Shape := ⟨3, ![1, 256, 256]⟩
abbrev S3x256x256 : Shape := ⟨3, ![3, 256, 256]⟩
abbrev S1x256 : Shape := ⟨2, ![1, 256]⟩
abbrev S3x256 : Shape := ⟨2, ![3, 256]⟩
abbrev S3x1x256 : Shape := ⟨3, ![3, 1, 256]⟩
abbrev S3x50000x256 : Shape := ⟨3, ![3, 50000, 256]⟩
abbrev S5000x256 : Shape := ⟨2, ![5000, 256]⟩
abbrev S1x1x256 : Shape := ⟨3, ![1, 1, 256]⟩
abbrev S1x5000x256 : Shape := ⟨3, ![1, 5000, 256]⟩
abbrev S_ : Shape := ⟨0, ![]⟩
abbrev S1x50000x256 : Shape := ⟨3, ![1, 50000, 256]⟩
abbrev S500000x1 : Shape := ⟨2, ![500000, 1]⟩
abbrev S500000x256 : Shape := ⟨2, ![500000, 256]⟩
abbrev S50000 : Shape := ⟨1, ![50000]⟩
abbrev S50000x1 : Shape := ⟨2, ![50000, 1]⟩

abbrev nBuf : Space → Nat
  | .hbm => 110
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S50000x256, .bf16⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S3x256x256, .f32⟩
  | .hbm, ⟨18, _⟩ => ⟨S3x256x256, .bf16⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S3x256, .f32⟩
  | .hbm, ⟨23, _⟩ => ⟨S3x1x256, .f32⟩
  | .hbm, ⟨24, _⟩ => ⟨S3x50000x256, .f32⟩
  | .hbm, ⟨25, _⟩ => ⟨S_, .f32⟩
  | .hbm, ⟨26, _⟩ => ⟨S500000, .f32⟩
  | .hbm, ⟨27, _⟩ => ⟨S_, .f32⟩
  | .hbm, ⟨28, _⟩ => ⟨S50000x256, .f32⟩
  | .hbm, ⟨29, _⟩ => ⟨S1x50000x256, .f32⟩
  | .hbm, ⟨30, _⟩ => ⟨S50000x256, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x256, .f32⟩
  | .hbm, ⟨40, _⟩ => ⟨S_, .f32⟩
  | .hbm, ⟨41, _⟩ => ⟨S50000x256, .f32⟩
  | .hbm, ⟨42, _⟩ => ⟨S500000x1, .i32⟩
  | .hbm, ⟨43, _⟩ => ⟨S50000x256, .f32⟩
  | .hbm, ⟨44, _⟩ => ⟨S_, .f32⟩
  | .hbm, ⟨45, _⟩ => ⟨S50000, .f32⟩
  | .hbm, ⟨46, _⟩ => ⟨S500000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S1x50000x256, .f32⟩
  | .hbm, ⟨56, _⟩ => ⟨S50000x256, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x256, .f32⟩
  | .hbm, ⟨66, _⟩ => ⟨S_, .f32⟩
  | .hbm, ⟨67, _⟩ => ⟨S50000x256, .f32⟩
  | .hbm, ⟨68, _⟩ => ⟨S500000x1, .i32⟩
  | .hbm, ⟨69, _⟩ => ⟨S50000x256, .f32⟩
  | .hbm, ⟨70, _⟩ => ⟨S_, .f32⟩
  | .hbm, ⟨71, _⟩ => ⟨S50000, .f32⟩
  | .hbm, ⟨72, _⟩ => ⟨S500000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x50000x256, .f32⟩
  | .hbm, ⟨82, _⟩ => ⟨S50000x256, .f32⟩
  | .hbm, ⟨83, _⟩ => ⟨S_, .i32⟩
  | .hbm, ⟨84, _⟩ => ⟨S500000, .i32⟩
  | .hbm, ⟨85, _⟩ => ⟨S500000, .i1⟩
  | .hbm, ⟨86, _⟩ => ⟨S_, .i32⟩
  | .hbm, ⟨87, _⟩ => ⟨S500000, .i32⟩
  | .hbm, ⟨88, _⟩ => ⟨S500000, .i32⟩
  | .hbm, ⟨89, _⟩ => ⟨S500000, .i32⟩
  | .hbm, ⟨90, _⟩ => ⟨S500000x1, .i32⟩
  | .hbm, ⟨91, _⟩ => ⟨S500000x256, .f32⟩
  | .hbm, ⟨92, _⟩ => ⟨S_, .f32⟩
  | .hbm, ⟨93, _⟩ => ⟨S50000x256, .f32⟩
  | .hbm, ⟨94, _⟩ => ⟨S500000x1, .i32⟩
  | .hbm, ⟨95, _⟩ => ⟨S50000x256, .f32⟩
  | .hbm, ⟨96, _⟩ => ⟨S_, .f32⟩
  | .hbm, ⟨97, _⟩ => ⟨S50000, .f32⟩
  | .hbm, ⟨98, _⟩ => ⟨S500000x1, .i32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x256, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S50000x256, .f32⟩
  | .hbm, ⟨109, _⟩ => ⟨S50000x256, .f32⟩
  | .local _ .vmem, ⟨0, _⟩ => ⟨S5000x256, .bf16⟩
  | .local _ .vmem, ⟨1, _⟩ => ⟨S5000x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x1x256, .f32⟩
  | .local _ .vmem, ⟨5, _⟩ => ⟨S1x1x256, .f32⟩
  | .local _ .vmem, ⟨6, _⟩ => ⟨S1x5000x256, .f32⟩
  | .local _ .vmem, ⟨7, _⟩ => ⟨S1x5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call0_cst : Ref sig .tc := ⟨.hbm, 107, rfl⟩
abbrev main_call0_v0 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S256x256_S1x256x256_1_2 : S256x256.BroadcastsInDim S1x256x256 (![1, 2] : Fin 2 → Fin S1x256x256.rank)
  concatenates_S1x256x256_S1x256x256_S1x256x256_S3x256x256_d0 : Shape.Concatenates [S1x256x256, S1x256x256, S1x256x256] S3x256x256 0
  bcast_S256_S1x256_1 : S256.BroadcastsInDim S1x256 (![1] : Fin 1 → Fin S1x256.rank)
  concatenates_S1x256_S1x256_S1x256_S3x256_d0 : Shape.Concatenates [S1x256, S1x256, S1x256] S3x256 0
  shapeCasts_S3x256_S3x1x256 : S3x256.ShapeCasts S3x1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S5000x256 : S1x256.Broadcasts S5000x256
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  shapeCasts_S5000x256_S1x5000x256 : S5000x256.ShapeCasts S1x5000x256
  bcast_S_S500000 : S_.BroadcastsInDim S500000 (![] : Fin 0 → Fin S500000.rank)
  bcast_S_S50000x256 : S_.BroadcastsInDim S50000x256 (![] : Fin 0 → Fin S50000x256.rank)
  slices_S3x50000x256_S1x50000x256_0_0_0 : S3x50000x256.Slices ![0, 0, 0] S1x50000x256
  shapeCasts_S1x50000x256_S50000x256 : S1x50000x256.ShapeCasts S50000x256
  bcast_S500000_S500000x1_0 : S500000.BroadcastsInDim S500000x1 (![0] : Fin 1 → Fin S500000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S3x50000x256_S1x50000x256_1_0_0 : S3x50000x256.Slices ![1, 0, 0] S1x50000x256
  slices_S3x50000x256_S1x50000x256_2_0_0 : S3x50000x256.Slices ![2, 0, 0] S1x50000x256
  dot_S5000x256_S256x256_S5000x256_1_0_0_1_n_n_wf : DotDims.WF S5000x256 S256x256 S5000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S3x256x256.size a
  hwx0_1 : ∀ i : grid0.Coords, EltTy.bits .bf16 = 32 ∨ (Rect.block (s := S3x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S3x1x256.size a
  hwx0_2 : ∀ i : grid0.Coords, EltTy.bits .f32 = 32 ∨ (Rect.block (s := S3x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x256.size a ≤ S3x50000x256.size a
  hwx0_3 : ∀ i : grid0.Coords, EltTy.bits .f32 = 32 ∨ (Rect.block (s := S3x50000x256) S1x5000x256.size (cc0_transform_3 i) (hinb0_3 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S500000 : Shape := ⟨1, ![500000]⟩
abbrev S256x256 : Shape := ⟨2, ![256, 256]⟩
abbrev S256 : Shape := ⟨1, ![256]⟩
abbrev S1x256 : Shape := ⟨2, ![1, 256]⟩
abbrev S_ : Shape := ⟨0, ![]⟩
abbrev S500000x1 : Shape := ⟨2, ![500000, 1]⟩
abbrev S500000x256 : Shape := ⟨2, ![500000, 256]⟩
abbrev S50000 : Shape := ⟨1, ![50000]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x256, .f32⟩
  | .hbm, ⟨26, _⟩ => ⟨S_, .f32⟩
  | .hbm, ⟨27, _⟩ => ⟨S50000x256, .f32⟩
  | .hbm, ⟨28, _⟩ => ⟨S500000x1, .i32⟩
  | .hbm, ⟨29, _⟩ => ⟨S50000x256, .f32⟩
  | .hbm, ⟨30, _⟩ => ⟨S_, .f32⟩
  | .hbm, ⟨31, _⟩ => ⟨S500000, .f32⟩
  | .hbm, ⟨32, _⟩ => ⟨S_, .f32⟩
  | .hbm, ⟨33, _⟩ => ⟨S50000, .f32⟩
  | .hbm, ⟨34, _⟩ => ⟨S500000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x256, .f32⟩
  | .hbm, ⟨55, _⟩ => ⟨S_, .f32⟩
  | .hbm, ⟨56, _⟩ => ⟨S50000x256, .f32⟩
  | .hbm, ⟨57, _⟩ => ⟨S500000x1, .i32⟩
  | .hbm, ⟨58, _⟩ => ⟨S50000x256, .f32⟩
  | .hbm, ⟨59, _⟩ => ⟨S_, .f32⟩
  | .hbm, ⟨60, _⟩ => ⟨S500000, .f32⟩
  | .hbm, ⟨61, _⟩ => ⟨S_, .f32⟩
  | .hbm, ⟨62, _⟩ => ⟨S50000, .f32⟩
  | .hbm, ⟨63, _⟩ => ⟨S500000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x256, .f32⟩
  | .hbm, ⟨85, _⟩ => ⟨S_, .f32⟩
  | .hbm, ⟨86, _⟩ => ⟨S50000x256, .f32⟩
  | .hbm, ⟨87, _⟩ => ⟨S500000x1, .i32⟩
  | .hbm, ⟨88, _⟩ => ⟨S50000x256, .f32⟩
  | .hbm, ⟨89, _⟩ => ⟨S_, .f32⟩
  | .hbm, ⟨90, _⟩ => ⟨S500000, .f32⟩
  | .hbm, ⟨91, _⟩ => ⟨S_, .f32⟩
  | .hbm, ⟨92, _⟩ => ⟨S50000, .f32⟩
  | .hbm, ⟨93, _⟩ => ⟨S500000x1, .i32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x256, .f32⟩
  | .hbm, ⟨100, _⟩ => ⟨S50000x256, .f32⟩
  | .hbm, ⟨101, _⟩ => ⟨S50000x256, .f32⟩
  | .hbm, ⟨102, _⟩ => ⟨S_, .f32⟩
  | .hbm, ⟨103, _⟩ => ⟨S50000x256, .f32⟩
  | .hbm, ⟨104, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call0_cst : Ref sig .tc := ⟨.hbm, 102, rfl⟩
abbrev main_call0_v0 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf

class Facts : Prop extends Facts₀ where

variable [Facts]
-- ==== Proof.BitsAround.lean ====
/-
  The host lines around the projection region. Before the region eleven host lines build the three operands the region stages (the
  node features, the three weight matrices stacked on a leading axis, the three biases stacked and given a unit
  middle axis); after it eighty-five host lines gather, scatter-add, divide, sum and clamp. Each line writes exactly
  one buffer, its own result, and that buffer is never an argument of the program nor one of the four arrays the
  region stages. So the arguments hold their launch contents when the region is entered and when the program ends,
  and the lines after the region leave the staged arrays alone.
-/
import proofs.«121962_j15994458210645_1_alg».proof.Proof.Gen.Kernel.Launch
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

variable (m : (ℓ : Loc nD τ sig) → Buf (Elt F) ℓ)

/-- What core `c`'s buffers hold when the region is entered: the launch contents rewritten by the eleven lines before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The lines after the region: the eighty-two of the program itself, then the three of the clamp at zero. -/
abbrev tailOps : List (List (HloOp τ sig (Elt F))) := [hostOps1, hostOps1_1]

/-! ## Which buffers the lines write -/

/-- The result buffers of the eleven lines before the region, in order. -/
def written0 : List (Ref sig .tc) :=
  [main_v0, main_v1, main_v2, main_v3, main_v4, main_v5, main_v6, main_v7, main_v8, main_v9, main_v10]

/-- The result buffers of the eighty-five lines after the region, in order. -/
def written1 : List (Ref sig .tc) :=
  [main_cst, main_v12, main_cst_0, main_v13, main_v14, main_v15, main_c, main_v16, main_v17, main_c_1, main_v18, main_v19, main_v20, main_v21, main_v22, main_cst_2, main_v23, main_v24, main_v25, main_cst_3, main_v26, main_v27, main_v28, main_cst_4, main_v29, main_v30, main_v31, main_v32, main_v33, main_v34, main_v35, main_v36, main_c_5, main_v37, main_v38, main_c_6, main_v39, main_v40, main_v41, main_v42, main_v43, main_cst_7, main_v44, main_v45, main_v46, main_cst_8, main_v47, main_v48, main_v49, main_cst_9, main_v50, main_v51, main_v52, main_v53, main_v54, main_v55, main_v56, main_v57, main_c_10, main_v58, main_v59, main_c_11, main_v60, main_v61, main_v62, main_v63, main_v64, main_cst_12, main_v65, main_v66, main_v67, main_cst_13, main_v68, main_v69, main_v70, main_cst_14, main_v71, main_v72, main_v73, main_v74, main_v75, main_v76, main_call0_cst, main_call0_v0, main_v77]

/-- A line whose one written buffer is in a list writes within that list. -/
theorem single_sub_written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A buffer outside the list is written by none of the lines. -/
theorem not_written {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

theorem hostOps0_writes : (hostOps0 : List (HloOp τ sig (Elt F))).Forall fun op =>
    op.writes ⊆ (written0.map (Proc.devRef (τ := τ) .tc)).toFinset := by
  simp only [List.Forall]
  repeat' apply And.intro
  all_goals exact single_sub_written (by decide)

set_option maxHeartbeats 4000000 in
theorem hostOps1_writes : (hostOps1 : List (HloOp τ sig (Elt F))).Forall fun op =>
    op.writes ⊆ (written1.map (Proc.devRef (τ := τ) .tc)).toFinset := by
  simp only [List.Forall]
  repeat' apply And.intro
  all_goals exact single_sub_written (by decide)

theorem hostOps1_1_writes : (hostOps1_1 : List (HloOp τ sig (Elt F))).Forall fun op =>
    op.writes ⊆ (written1.map (Proc.devRef (τ := τ) .tc)).toFinset := by
  simp only [List.Forall]
  repeat' apply And.intro
  all_goals exact single_sub_written (by decide)

/-- All eighty-five lines after the region write within `written1`. -/
theorem tail_writes : ((tailOps (F := F)).flatten).Forall fun op =>
    op.writes ⊆ (written1.map (Proc.devRef (τ := τ) .tc)).toFinset := by
  rw [show (tailOps (F := F)).flatten = hostOps1 ++ hostOps1_1 from by
    simp only [List.flatten_cons, List.flatten_nil, List.append_nil]]
  exact List.forall_append.mpr ⟨hostOps1_writes, hostOps1_1_writes⟩

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## The program around its region -/

set_option maxHeartbeats 4000000 in
/-- The program is the eleven lines, the region, then the eighty-five lines: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] [hostOps1, hostOps1_1] (by simp only [List.Forall]; exact hostOps0_sub)
    (by simp only [List.Forall]; exact hostOps0_fresh) (fun c => by
      simp only [List.map_cons, List.map_nil, List.cons_append, List.nil_append]
      exact main_chain c)

/-- The later lines touch only the staged arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- None of the four staged arrays is a result buffer of a later line. -/
theorem arr_not_written1 : ∀ w : Fin 4, Pipeline.arrRef spec0 w ∉ written1 := by decide

/-- So the later lines leave the staged arrays as the region left them. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_written hostOps1_writes (arr_not_written1 w) op hop
  · exact not_written hostOps1_1_writes (arr_not_written1 w) op hop

/-! ## A buffer no line writes -/

/-- A buffer that is no result of the eleven earlier lines is entered by the region at its launch contents. -/
theorem V_of_not_written (c : Dev nD) (r : Ref sig .tc) (hr : r ∉ written0) : V m c r = m ((c : Thread nD τ).loc r) := by
  show StableHlo.after (List.flatten [hostOps0]) (fun b => m (c, b)) (Proc.devRef .tc r) = _
  rw [show List.flatten [hostOps0 (F := F)] = hostOps0 from by simp only [List.flatten_cons, List.flatten_nil, List.append_nil]]
  exact StableHlo.after_of_writes_sub (W := written0) _ _ hostOps0_writes hr

/-- A buffer that is no staged array and no result of any line ends the program at its launch contents. -/
theorem afterTail_of_not_written (dats : (p : Fin 1) → (c : Dev nD) → Pipeline.Dat τ (Elt F) Unit ℕ (UR sig nD τ) ℕ (cfgs p) c)
    (c : Dev nD) (r : Ref sig .tc) (h0 : r ∉ written0) (h1 : r ∉ written1) (ha : ∀ w, Pipeline.arrRef spec0 w ≠ r) :
    Pipeline.afterTail₀ cfgs dats 0 (V0 m) tailOps c r = m ((c : Thread nD τ).loc r) := by
  unfold Pipeline.afterTail₀
  rw [StableHlo.after_of_writes_sub (W := written1) _ _ tail_writes h1,
    Pipeline.withArrays_of_ne _ c (V0 m c) _ r ha]
  exact V_of_not_written m c r h0

end Cert.Kernel.Around

end
-- ==== Proof.BitsRegion.lean ====
/-
  The projection region. Its grid has 3 × 10 points: point (r, j) multiplies rows 5000·j … 5000·j + 4999 of the node
  features by the r-th weight matrix, adds the r-th bias to every row, and stores the 5000 × 256 result as block
  (r, j) of the stacked output. The body loads its three input blocks whole, computes, and overwrites the whole
  output block with one store (it also loads the output block first and discards what it read). So after the body
  each input's staging buffer still holds its block, and the output's holds the payload of the three input blocks.
  With that as the proof data, the program runs to the end: the region by the pipeline's launch theorem, the lines
  after it from the region's exit, and every argument buffer ends at its launch contents because no line writes one.
-/
import proofs.«121962_j15994458210645_1_alg».proof.Proof.BitsAround
import proofs.«121962_j15994458210645_1_alg».proof.Proof.Gen.Kernel.Skeleton
import proofs.«121962_j15994458210645_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point (it is fetched at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds its block at every point: it is fetched when the relation changes, and
    between two fetches its block index does not move. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias window. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S5000x256 := Rect.unit (s := S5000x256) ![0, 0] S5000x256.size inb_S5000x256_S5000x256_0_0
abbrev rW : Rect S1x256x256 := Rect.unit (s := S1x256x256) ![0, 0, 0] S1x256x256.size inb_S1x256x256_S1x256x256_0_0_0
abbrev rB : Rect S1x1x256 := Rect.unit (s := S1x1x256) ![0, 0, 0] S1x1x256.size inb_S1x1x256_S1x1x256_0_0_0
abbrev rO : Rect S1x5000x256 := Rect.unit (s := S1x5000x256) ![0, 0, 0] S1x5000x256.size inb_S1x5000x256_S1x5000x256_0_0_0

/-! ## What the body leaves in the output's staging buffer -/

/-- The output block after the body: its one store, of the product-plus-bias payload of the three input blocks. -/
def outBlock (x0 : Vec F S5000x256 .bf16) (x1 : Vec F S1x256x256 .bf16) (x2 : Vec F S1x1x256 .f32) : Vec F S1x5000x256 .f32 :=
  View.canon [⟨rO, k0_pay1 (View.ld x0 rX) (View.ld x1 rW) (View.ld x2 rB)⟩]

/-- That store covers the buffer. -/
theorem coverO (p0 : Vec F S1x5000x256 .f32) (y : S1x5000x256.Idx) :
    ∃ pc ∈ ([⟨rO, p0⟩] : List (View.Piece (Elt F) S1x5000x256 .f32)), y ∈ pc.1.set :=
  View.cover_of_tiled [⟨rO, p0⟩] S1x5000x256.size (by rfl) y

/-! ## The body's triple -/

set_option maxHeartbeats 4000000 in
/-- The body on whole staging buffers — the inputs' at contents `x0`, `x1`, `x2`, the output's at anything — runs to
    its end holding the inputs' as they were and the output's at `outBlock` of them. -/
theorem sound_kernel (c : Dev nD) (E : Set ℕ) (i : grid0.Coords)
    (arg2 : Memref sig .tc .vmem S5000x256 .bf16) (harg2 : arg2.IsWhole)
    (arg3 : Memref sig .tc .vmem S1x256x256 .bf16) (harg3 : arg3.IsWhole)
    (arg4 : Memref sig .tc .vmem S1x1x256 .f32) (harg4 : arg4.IsWhole)
    (arg5 : Memref sig .tc .vmem S1x5000x256 .f32) (harg5 : arg5.IsWhole)
    (x0 : Vec F S5000x256 .bf16) (x1 : Vec F S1x256x256 .bf16) (x2 : Vec F S1x1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1
              ∗ owns (c : Thread nD τ) arg4 fullShare x2 ∗ owns (c : Thread nD τ) arg5 fullShare (outBlock x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's proof data -/

/-- The arrays as the region finds them; after the body at point `t` each input's buffer at its block and the
    output's at `outBlock` of the three; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 4000000 in
/-- Every weakly fair execution of the program ends, faulting nowhere, with each staged array at what the proof data
    computes and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument buffer ends the program at its launch contents: it is unscoped, no staged array, and no line's result. -/
theorem kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (ha : ∀ w, Pipeline.arrRef spec0 w ≠ b) (h0 : b ∉ written0) (h1 : b ∉ written1) :
    r.2.mem ((c.tc : Thread nD τ).loc b) = m ((c.tc : Thread nD τ).loc b) :=
  ((h c).2 b (Pipeline.mem_restRefs_of b hs ha)).trans (afterTail_of_not_written m (dats m) c b h0 h1 ha)

/-- The frame: the program runs to the end and its thirteen argument buffers end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun r h c => ⟨kept m r h c main_arg0 (by decide) (by decide) (by decide) (by decide),
    kept m r h c main_arg1 (by decide) (by decide) (by decide) (by decide),
    kept m r h c main_arg2 (by decide) (by decide) (by decide) (by decide),
    kept m r h c main_arg3 (by decide) (by decide) (by decide) (by decide),
    kept m r h c main_arg4 (by decide) (by decide) (by decide) (by decide),
    kept m r h c main_arg5 (by decide) (by decide) (by decide) (by decide),
    kept m r h c main_arg6 (by decide) (by decide) (by decide) (by decide),
    kept m r h c main_arg7 (by decide) (by decide) (by decide) (by decide),
    kept m r h c main_arg8 (by decide) (by decide) (by decide) (by decide),
    kept m r h c main_arg9 (by decide) (by decide) (by decide) (by decide),
    kept m r h c main_arg10 (by decide) (by decide) (by decide) (by decide),
    kept m r h c main_arg11 (by decide) (by decide) (by decide) (by decide),
    kept m r h c main_arg12 (by decide) (by decide) (by decide) (by decide)⟩) (run_main m ρ)

end Cert.Kernel.Gen.Region

end
-- ==== Proof.IdealAround.lean ====
/-
  The host lines around the projection region. Before the region eleven host lines build the three operands the region stages (the
  node features, the three weight matrices stacked on a leading axis, the three biases stacked and given a unit
  middle axis); after it eighty-five host lines gather, scatter-add, divide, sum and clamp. Each line writes exactly
  one buffer, its own result, and that buffer is never an argument of the program nor one of the four arrays the
  region stages. So the arguments hold their launch contents when the region is entered and when the program ends,
  and the lines after the region leave the staged arrays alone.
-/
import proofs.«121962_j15994458210645_1_alg».proof.Proof.Gen.KernelIdeal.Launch
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

variable (m : (ℓ : Loc nD τ sig) → Buf (Elt F) ℓ)

/-- What core `c`'s buffers hold when the region is entered: the launch contents rewritten by the eleven lines before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The lines after the region: the eighty-two of the program itself, then the three of the clamp at zero. -/
abbrev tailOps : List (List (HloOp τ sig (Elt F))) := [hostOps1, hostOps1_1]

/-! ## Which buffers the lines write -/

/-- The result buffers of the eleven lines before the region, in order. -/
def written0 : List (Ref sig .tc) :=
  [main_v0, main_v1, main_v2, main_v3, main_v4, main_v5, main_v6, main_v7, main_v8, main_v9, main_v10]

/-- The result buffers of the eighty-five lines after the region, in order. -/
def written1 : List (Ref sig .tc) :=
  [main_cst, main_v12, main_cst_0, main_v13, main_v14, main_v15, main_c, main_v16, main_v17, main_c_1, main_v18, main_v19, main_v20, main_v21, main_v22, main_cst_2, main_v23, main_v24, main_v25, main_cst_3, main_v26, main_v27, main_v28, main_cst_4, main_v29, main_v30, main_v31, main_v32, main_v33, main_v34, main_v35, main_v36, main_c_5, main_v37, main_v38, main_c_6, main_v39, main_v40, main_v41, main_v42, main_v43, main_cst_7, main_v44, main_v45, main_v46, main_cst_8, main_v47, main_v48, main_v49, main_cst_9, main_v50, main_v51, main_v52, main_v53, main_v54, main_v55, main_v56, main_v57, main_c_10, main_v58, main_v59, main_c_11, main_v60, main_v61, main_v62, main_v63, main_v64, main_cst_12, main_v65, main_v66, main_v67, main_cst_13, main_v68, main_v69, main_v70, main_cst_14, main_v71, main_v72, main_v73, main_v74, main_v75, main_v76, main_call0_cst, main_call0_v0, main_v77]

/-- A line whose one written buffer is in a list writes within that list. -/
theorem single_sub_written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A buffer outside the list is written by none of the lines. -/
theorem not_written {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

theorem hostOps0_writes : (hostOps0 : List (HloOp τ sig (Elt F))).Forall fun op =>
    op.writes ⊆ (written0.map (Proc.devRef (τ := τ) .tc)).toFinset := by
  simp only [List.Forall]
  repeat' apply And.intro
  all_goals exact single_sub_written (by decide)

set_option maxHeartbeats 4000000 in
theorem hostOps1_writes : (hostOps1 : List (HloOp τ sig (Elt F))).Forall fun op =>
    op.writes ⊆ (written1.map (Proc.devRef (τ := τ) .tc)).toFinset := by
  simp only [List.Forall]
  repeat' apply And.intro
  all_goals exact single_sub_written (by decide)

theorem hostOps1_1_writes : (hostOps1_1 : List (HloOp τ sig (Elt F))).Forall fun op =>
    op.writes ⊆ (written1.map (Proc.devRef (τ := τ) .tc)).toFinset := by
  simp only [List.Forall]
  repeat' apply And.intro
  all_goals exact single_sub_written (by decide)

/-- All eighty-five lines after the region write within `written1`. -/
theorem tail_writes : ((tailOps (F := F)).flatten).Forall fun op =>
    op.writes ⊆ (written1.map (Proc.devRef (τ := τ) .tc)).toFinset := by
  rw [show (tailOps (F := F)).flatten = hostOps1 ++ hostOps1_1 from by
    simp only [List.flatten_cons, List.flatten_nil, List.append_nil]]
  exact List.forall_append.mpr ⟨hostOps1_writes, hostOps1_1_writes⟩

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## The program around its region -/

set_option maxHeartbeats 4000000 in
/-- The program is the eleven lines, the region, then the eighty-five lines: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] [hostOps1, hostOps1_1] (by simp only [List.Forall]; exact hostOps0_sub)
    (by simp only [List.Forall]; exact hostOps0_fresh) (fun c => by
      simp only [List.map_cons, List.map_nil, List.cons_append, List.nil_append]
      exact main_chain c)

/-- The later lines touch only the staged arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- None of the four staged arrays is a result buffer of a later line. -/
theorem arr_not_written1 : ∀ w : Fin 4, Pipeline.arrRef spec0 w ∉ written1 := by decide

/-- So the later lines leave the staged arrays as the region left them. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_written hostOps1_writes (arr_not_written1 w) op hop
  · exact not_written hostOps1_1_writes (arr_not_written1 w) op hop

/-! ## A buffer no line writes -/

/-- A buffer that is no result of the eleven earlier lines is entered by the region at its launch contents. -/
theorem V_of_not_written (c : Dev nD) (r : Ref sig .tc) (hr : r ∉ written0) : V m c r = m ((c : Thread nD τ).loc r) := by
  show StableHlo.after (List.flatten [hostOps0]) (fun b => m (c, b)) (Proc.devRef .tc r) = _
  rw [show List.flatten [hostOps0 (F := F)] = hostOps0 from by simp only [List.flatten_cons, List.flatten_nil, List.append_nil]]
  exact StableHlo.after_of_writes_sub (W := written0) _ _ hostOps0_writes hr

/-- A buffer that is no staged array and no result of any line ends the program at its launch contents. -/
theorem afterTail_of_not_written (dats : (p : Fin 1) → (c : Dev nD) → Pipeline.Dat τ (Elt F) Unit ℕ (UR sig nD τ) ℕ (cfgs p) c)
    (c : Dev nD) (r : Ref sig .tc) (h0 : r ∉ written0) (h1 : r ∉ written1) (ha : ∀ w, Pipeline.arrRef spec0 w ≠ r) :
    Pipeline.afterTail₀ cfgs dats 0 (V0 m) tailOps c r = m ((c : Thread nD τ).loc r) := by
  unfold Pipeline.afterTail₀
  rw [StableHlo.after_of_writes_sub (W := written1) _ _ tail_writes h1,
    Pipeline.withArrays_of_ne _ c (V0 m c) _ r ha]
  exact V_of_not_written m c r h0

end Cert.KernelIdeal.Around

end
-- ==== Proof.IdealRegion.lean ====
/-
  The projection region. Its grid has 3 × 10 points: point (r, j) multiplies rows 5000·j … 5000·j + 4999 of the node
  features by the r-th weight matrix, adds the r-th bias to every row, and stores the 5000 × 256 result as block
  (r, j) of the stacked output. The body loads its three input blocks whole, computes, and overwrites the whole
  output block with one store (it also loads the output block first and discards what it read). So after the body
  each input's staging buffer still holds its block, and the output's holds the payload of the three input blocks.
  With that as the proof data, the program runs to the end: the region by the pipeline's launch theorem, the lines
  after it from the region's exit, and every argument buffer ends at its launch contents because no line writes one.
-/
import proofs.«121962_j15994458210645_1_alg».proof.Proof.IdealAround
import proofs.«121962_j15994458210645_1_alg».proof.Proof.Gen.KernelIdeal.Skeleton
import proofs.«121962_j15994458210645_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point (it is fetched at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds its block at every point: it is fetched when the relation changes, and
    between two fetches its block index does not move. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias window. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S5000x256 := Rect.unit (s := S5000x256) ![0, 0] S5000x256.size inb_S5000x256_S5000x256_0_0
abbrev rW : Rect S1x256x256 := Rect.unit (s := S1x256x256) ![0, 0, 0] S1x256x256.size inb_S1x256x256_S1x256x256_0_0_0
abbrev rB : Rect S1x1x256 := Rect.unit (s := S1x1x256) ![0, 0, 0] S1x1x256.size inb_S1x1x256_S1x1x256_0_0_0
abbrev rO : Rect S1x5000x256 := Rect.unit (s := S1x5000x256) ![0, 0, 0] S1x5000x256.size inb_S1x5000x256_S1x5000x256_0_0_0

/-! ## What the body leaves in the output's staging buffer -/

/-- The output block after the body: its one store, of the product-plus-bias payload of the three input blocks. -/
def outBlock (x0 : Vec F S5000x256 .bf16) (x1 : Vec F S1x256x256 .bf16) (x2 : Vec F S1x1x256 .f32) : Vec F S1x5000x256 .f32 :=
  View.canon [⟨rO, k0_pay1 (View.ld x0 rX) (View.ld x1 rW) (View.ld x2 rB)⟩]

/-- That store covers the buffer. -/
theorem coverO (p0 : Vec F S1x5000x256 .f32) (y : S1x5000x256.Idx) :
    ∃ pc ∈ ([⟨rO, p0⟩] : List (View.Piece (Elt F) S1x5000x256 .f32)), y ∈ pc.1.set :=
  View.cover_of_tiled [⟨rO, p0⟩] S1x5000x256.size (by rfl) y

/-! ## The body's triple -/

set_option maxHeartbeats 4000000 in
/-- The body on whole staging buffers — the inputs' at contents `x0`, `x1`, `x2`, the output's at anything — runs to
    its end holding the inputs' as they were and the output's at `outBlock` of them. -/
theorem sound_kernel (c : Dev nD) (E : Set ℕ) (i : grid0.Coords)
    (arg2 : Memref sig .tc .vmem S5000x256 .bf16) (harg2 : arg2.IsWhole)
    (arg3 : Memref sig .tc .vmem S1x256x256 .bf16) (harg3 : arg3.IsWhole)
    (arg4 : Memref sig .tc .vmem S1x1x256 .f32) (harg4 : arg4.IsWhole)
    (arg5 : Memref sig .tc .vmem S1x5000x256 .f32) (harg5 : arg5.IsWhole)
    (x0 : Vec F S5000x256 .bf16) (x1 : Vec F S1x256x256 .bf16) (x2 : Vec F S1x1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1
              ∗ owns (c : Thread nD τ) arg4 fullShare x2 ∗ owns (c : Thread nD τ) arg5 fullShare (outBlock x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's proof data -/

/-- The arrays as the region finds them; after the body at point `t` each input's buffer at its block and the
    output's at `outBlock` of the three; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 4000000 in
/-- Every weakly fair execution of the program ends, faulting nowhere, with each staged array at what the proof data
    computes and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument buffer ends the program at its launch contents: it is unscoped, no staged array, and no line's result. -/
theorem kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (ha : ∀ w, Pipeline.arrRef spec0 w ≠ b) (h0 : b ∉ written0) (h1 : b ∉ written1) :
    r.2.mem ((c.tc : Thread nD τ).loc b) = m ((c.tc : Thread nD τ).loc b) :=
  ((h c).2 b (Pipeline.mem_restRefs_of b hs ha)).trans (afterTail_of_not_written m (dats m) c b h0 h1 ha)

/-- The frame: the program runs to the end and its thirteen argument buffers end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun r h c => ⟨kept m r h c main_arg0 (by decide) (by decide) (by decide) (by decide),
    kept m r h c main_arg1 (by decide) (by decide) (by decide) (by decide),
    kept m r h c main_arg2 (by decide) (by decide) (by decide) (by decide),
    kept m r h c main_arg3 (by decide) (by decide) (by decide) (by decide),
    kept m r h c main_arg4 (by decide) (by decide) (by decide) (by decide),
    kept m r h c main_arg5 (by decide) (by decide) (by decide) (by decide),
    kept m r h c main_arg6 (by decide) (by decide) (by decide) (by decide),
    kept m r h c main_arg7 (by decide) (by decide) (by decide) (by decide),
    kept m r h c main_arg8 (by decide) (by decide) (by decide) (by decide),
    kept m r h c main_arg9 (by decide) (by decide) (by decide) (by decide),
    kept m r h c main_arg10 (by decide) (by decide) (by decide) (by decide),
    kept m r h c main_arg11 (by decide) (by decide) (by decide) (by decide),
    kept m r h c main_arg12 (by decide) (by decide) (by decide) (by decide)⟩) (run_main m ρ)

end Cert.KernelIdeal.Gen.Region

end
-- ==== Proof.IdealPayload.lean ====
/-
  The projection body's arithmetic, read at one element of its output block. The body multiplies its 5000 × 256 block
  of node features by one 256 × 256 weight matrix into a zero accumulator and adds the bias row to every row; the
  weight and the bias arrive with a leading unit axis (one member of a stack) and the result is stored with one. At
  the exact values a change of float format is the identity and the matrix unit's product is the plain sum over the
  contracted axis, so element (p, q) of the block is  Σₖ x(p, k) · w(k, q) + b(q).
-/
import proofs.«121962_j15994458210645_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen.Payload

open Idealize.ShloMosaic Idealize.ShloMosaic.ValueIdx

/-! ## The block product's operand indices -/

theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_contr (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_contr (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The block product into a zero accumulator, at row `p` and column `q`: the sum over the contracted axis. -/
theorem product_at (a : FVec Ideal S5000x256 .bf16) (b : FVec Ideal S256x256 .bf16) (p : Fin 5000) (q : Fin 256) :
    matmul (F := Ideal) dot_S5000x256_S256x256_S5000x256_1_0_0_1_n_n none a b (constant (F := Ideal) S5000x256 .f32 0x00000000#32) (ix2 p q)
      = ∑ k : Fin 256, a (ix2 p k) * b (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun ax => Fin.ext (by
    match ax with
    | ⟨0, _⟩ => exact lhs_row _ _
    | ⟨1, _⟩ => exact (lhs_contr _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun ax => Fin.ext (by
    match ax with
    | ⟨0, _⟩ => exact (rhs_contr _ _).trans hk
    | ⟨1, _⟩ => exact rhs_col _ _)
  rw [el, er]

/-! ## The unit axes -/

/-- A 5000 × 256 value stored as a 1 × 5000 × 256 block: element (0, p, q) is element (p, q). -/
theorem stored_at {α : Type} (v : S5000x256.Idx → α) (h : S5000x256.ShapeCasts S1x5000x256) (p : Fin 5000) (q : Fin 256) :
    shapeCast S1x5000x256 v h (ix3 (0 : Fin 1) p q) = v (ix2 p q) :=
  (shapeCast_addUnit_apply ![5000, 256] v h (ix3 (0 : Fin 1) p q)).trans
    (congrArg v (funext fun ax => by match ax with | ⟨0, _⟩ => rfl | ⟨1, _⟩ => rfl))

/-- The weight block, one member of the stack, viewed as a matrix: element (k, q) is element (0, k, q). -/
theorem weight_at {α : Type} (v : S1x256x256.Idx → α) (h : S1x256x256.ShapeCasts S256x256) (k q : Fin 256) :
    shapeCast S256x256 v h (ix2 k q) = v (ix3 (0 : Fin 1) k q) :=
  (shapeCast_dropUnit_apply ![256, 256] v h (ix2 k q)).trans
    (congrArg v (funext fun ax => by match ax with | ⟨0, _⟩ => rfl | ⟨1, _⟩ => rfl | ⟨2, _⟩ => rfl))

/-- The bias block viewed as one row: element (0, q) is element (0, 0, q). -/
theorem bias_at {α : Type} (v : S1x1x256.Idx → α) (h : S1x1x256.ShapeCasts S1x256) (q : Fin 256) :
    shapeCast S1x256 v h (ix2 (0 : Fin 1) q) = v (ix3 (0 : Fin 1) (0 : Fin 1) q) :=
  (shapeCast_dropUnit_apply ![1, 256] v h (ix2 (0 : Fin 1) q)).trans
    (congrArg v (funext fun ax => by match ax with | ⟨0, _⟩ => rfl | ⟨1, _⟩ => rfl | ⟨2, _⟩ => rfl))

/-! ## The stored value at an element -/

/-- Element (0, p, q) of what the body stores, from its three loaded blocks. -/
theorem pay_at (x0 : Vec Ideal S5000x256 .bf16) (x1 : Vec Ideal S1x256x256 .bf16) (x2 : Vec Ideal S1x1x256 .f32)
    (p : Fin 5000) (q : Fin 256) :
    k0_pay1 (F := Ideal) x0 x1 x2 (ix3 (0 : Fin 1) p q)
      = (∑ k : Fin 256, x0 (ix2 p k) * x1 (ix3 (0 : Fin 1) k q)) + x2 (ix3 (0 : Fin 1) (0 : Fin 1) q) := by
  unfold k0_pay1
  refine (stored_at _ _ p q).trans ?_
  refine congrArg₂ (· + ·) ?_ ?_
  · refine (product_at _ _ p q).trans (Finset.sum_congr rfl fun k _ => ?_)
    refine congrArg₂ (· * ·) ?_ ?_
    · exact congrFun (shapeCast_self x0 _) (ix2 p k)
    · exact weight_at x1 _ k q
  · refine (broadcastTo_1b_ab_apply _ _ p q).trans ?_
    exact bias_at x2 _ q

end Cert.KernelIdeal.Gen.Payload

end
-- ==== Proof.IdealStacked.lean ====
/-
  The stacked projection array after the region. Point (r, j) of the 3 × 10 grid writes back block (r, j): the 5000
  rows starting at row 5000·j of slab r. The blocks tile the 3 × 50000 × 256 array, and each is the restriction of one
  function of the three staged arrays:  out(r, n, d) = Σₖ x(n, k) · w(r, k, d) + b(r, 0, d)  — the feature block
  moves with the output's row block, the weight and bias blocks with its slab. So the array ends holding that function.
-/
import proofs.«121962_j15994458210645_1_alg».proof.Proof.IdealRegion
import proofs.«121962_j15994458210645_1_alg».proof.Proof.IdealPayload
import Idealize.ShloMosaic.Lib.Pipeline.Value
import Idealize.ShloMosaic.Lib.ValueIdx

set_option maxRecDepth 16384

noncomputable section

namespace Cert.KernelIdeal.Gen.Stacked

open Idealize.ShloMosaic Idealize.ShloMosaic.TcCoe Idealize.ShloMosaic.ValueIdx
open Idealize.SL Idealize.SL.Sem
open Idealize.ShloMosaic.Pipeline (Dat)
open Cert.KernelIdeal.Around Cert.KernelIdeal.Gen.Region

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The stacked projections as one function of the staged features, weights and biases. -/
def stacked (x : FVec Ideal S50000x256 .bf16) (w : FVec Ideal S3x256x256 .bf16) (b : FVec Ideal S3x1x256 .f32) :
    FVec Ideal S3x50000x256 .f32 :=
  fun i => (∑ k : Fin 256, x (ix2 (i 1) k) * w (ix3 (i 0) k (i 2))) + b (ix3 (i 0) (0 : Fin 1) (i 2))

/-- The printed index maps, decided over the grid: the feature block follows the output's row block, the weight and
    bias blocks its slab, every other block coordinate is zero, and the output's block coordinates stay in range. -/
theorem block_indices : ∀ t : Fin cfg0.N, win0_0.index t (0 : Fin 2) = win0_3.index t (1 : Fin 3)
    ∧ win0_0.index t (1 : Fin 2) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 2
    ∧ win0_3.index t (1 : Fin 3) ≤ 9
    ∧ win0_3.index t (2 : Fin 3) = 0 :=
  (by decide +kernel : ∀ t : Fin grid0.N, _)

/-- Every (slab, row block) pair is some point's. -/
theorem block_onto : ∀ (r : Fin 3) (j : Fin 10), ∃ t : Fin cfg0.N, win0_3.index t = ![r.val, j.val, 0] :=
  (by decide +kernel : ∀ (r : Fin 3) (j : Fin 10), ∃ t : Fin grid0.N, win0_3.index t = ![r.val, j.val, 0])

/-- What point `t` writes back is block `t` of `stacked` of the arrays as the region finds them. -/
theorem flushed_eq (c : Dev nD) (t : Fin cfg0.N) :
    (dats (F := Ideal) m 0 c).flushed 3 t
      = ((cfg0.win 3).blk t).view.read (Elt Ideal) (stacked (V m c main_v0) (V m c main_v5) (V m c main_v10)) := by
  show (cfg0.win 3).cut (grid0.coords t) ((dats (F := Ideal) m 0 c).after 3 t) = _
  rw [after3]
  unfold outBlock
  rw [View.canon_unit_zero zeros3]
  simp only [View.ld_unit_zero (S := S5000x256) zeros2, View.ld_unit_zero (S := S1x256x256) zeros3,
    View.ld_unit_zero (S := S1x1x256) zeros3]
  obtain ⟨e0, e1, e2, e3, e4, e5, e6, e7, e8, e9, e10⟩ := block_indices t
  funext y
  obtain ⟨z, p, q, rfl⟩ : ∃ (z : Fin 1) (p : Fin 5000) (q : Fin 256), y = ix3 z p q := ⟨y 0, y 1, y 2, eq_ix3 y⟩
  obtain rfl : z = 0 := Subsingleton.elim _ _
  refine (Payload.pay_at (iblk m c 0 t) (iblk m c 1 t) (iblk m c 2 t) p q).trans ?_
  show _ = stacked (V m c main_v0) (V m c main_v5) (V m c main_v10) (((cfg0.win 3).blk t).view.emb (ix3 (0 : Fin 1) p q))
  unfold stacked
  refine congrArg₂ (· + ·) (Finset.sum_congr rfl fun k _ => congrArg₂ (· * ·) ?_ ?_) ?_
  · show V m c main_v0 (((cfg0.win 0).blk t).view.emb (ix2 p k)) = V m c main_v0 _
    refine congrArg (V m c main_v0) (funext fun a => Fin.ext ?_)
    match a with
    | ⟨0, _⟩ => show win0_0.index t (0 : Fin 2) * 5000 + 1 * p.val = win0_3.index t (1 : Fin 3) * 5000 + 1 * p.val; omega
    | ⟨1, _⟩ => show win0_0.index t (1 : Fin 2) * 256 + 1 * k.val = k.val; omega
  · show V m c main_v5 (((cfg0.win 1).blk t).view.emb (ix3 (0 : Fin 1) k q)) = V m c main_v5 _
    refine congrArg (V m c main_v5) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 256 + 1 * k.val = k.val; omega
    | ⟨2, _⟩ => show win0_1.index t (2 : Fin 3) * 256 + 1 * q.val = win0_3.index t (2 : Fin 3) * 256 + 1 * q.val; omega
  · show V m c main_v10 (((cfg0.win 2).blk t).view.emb (ix3 (0 : Fin 1) (0 : Fin 1) q)) = V m c main_v10 _
    refine congrArg (V m c main_v10) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 1 + 1 * 0 = 0; omega
    | ⟨2, _⟩ => show win0_2.index t (2 : Fin 3) * 256 + 1 * q.val = win0_3.index t (2 : Fin 3) * 256 + 1 * q.val; omega

/-- An element of the array is in point `t`'s block iff each coordinate is in the block's range on its axis. -/
theorem mem_block (t : Fin cfg0.N) (i : S3x50000x256.Idx) :
    i ∈ ((cfg0.win 3).blk t).view.set ↔ ∀ a : Fin 3, win0_3.index t a * S1x5000x256.size a ≤ (i a).val
      ∧ (i a).val < win0_3.index t a * S1x5000x256.size a + S1x5000x256.size a := by
  show i ∈ ((View.whole main_v11).slice (win0_3.rect t)).set ↔ _
  rw [View.set_slice_whole, Rect.mem_set_unit]
  exact Iff.rfl

/-- Every element is in some point's block: slab `r`, row `n` is written by the point of slab `r` and row block `n / 5000`. -/
theorem covered (i : S3x50000x256.Idx) :
    ∃ t : Fin cfg0.N, (cfg0.win 3).flush t = true ∧ i ∈ ((cfg0.win 3).blk t).view.set := by
  have h0 : (i 0).val < 3 := (i 0).isLt
  have h1 : (i 1).val < 50000 := (i 1).isLt
  have h2 : (i 2).val < 256 := (i 2).isLt
  obtain ⟨t, ht⟩ := block_onto ⟨(i 0).val, h0⟩ ⟨(i 1).val / 5000, by omega⟩
  have q0 : win0_3.index t (0 : Fin 3) = (i 0).val := congrFun ht 0
  have q1 : win0_3.index t (1 : Fin 3) = (i 1).val / 5000 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 5000 ≤ (i 1).val ∧ (i 1).val < win0_3.index t (1 : Fin 3) * 5000 + 5000; omega
  | ⟨2, _⟩ => show win0_3.index t (2 : Fin 3) * 256 ≤ (i 2).val ∧ (i 2).val < win0_3.index t (2 : Fin 3) * 256 + 256; omega

/-- The stacked array after the region: `stacked` of the three arrays the region was handed. -/
theorem final (c : Dev nD) :
    (dats (F := Ideal) m 0 c).arrAt 3 cfg0.N = stacked (V m c main_v0) (V m c main_v5) (V m c main_v10) :=
  (dats (F := Ideal) m 0 c).arrAt_eq_of_cover 3 _ (fun t _ => flushed_eq m c t) covered

end Cert.KernelIdeal.Gen.Stacked

end
-- ==== Proof.IdealRelation.lean ====
/-
  The aggregation both programs apply to each relation's projected features, named once: both programs run the same
  gather, scatter-add, count, clamp and divide on their projections, so it is never opened — the two programs differ only
  in how the projections are computed and in a leading zero summand.
-/
import proofs.«121962_j15994458210645_1_alg».proof.Proof.Gen.KernelIdeal

noncomputable section

namespace Cert.KernelIdeal.Gen.Agg

open Idealize.ShloMosaic

variable {F : FTy → Type} [FloatOps F]

/-- One relation's mean aggregation of a projected feature array `P` along its edges: gather row `src e` of `P` for each
    edge `e` (a negative index counted from the end), add the gathered rows into row `dst e`, and divide each row by
    the number of edges arriving at it, or by one where none does. -/
def relation (P : (⟨S50000x256, .f32⟩ : BufTy).Contents (Elt F)) (src dst : (⟨S500000, .i32⟩ : BufTy).Contents (Elt F)) :
    (⟨S50000x256, .f32⟩ : BufTy).Contents (Elt F) :=
  Host.divf
    (Host.scatterAdd scatter_S50000x256_S500000x1_S500000x256_1_0_0_1
      (broadcastInDim S50000x256 ![] bcast_S_S50000x256 (constant S_ .f32 0x00000000#32))
      (broadcastInDim S500000x1 ![0] bcast_S500000_S500000x1_0 dst)
      (Host.gather gather_S50000x256_S500000x1_S500000x256_1_0_n_n_0_1_1256 P
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S500000x1_S500000_n_0_0_1
            (broadcastInDim S50000 ![] bcast_S_S50000 (constant S_ .f32 0x00000000#32))
            (broadcastInDim S500000x1 ![0] bcast_S500000_S500000x1_0 dst)
            (broadcastInDim S500000 ![] bcast_S_S500000 (constant S_ .f32 0x3F800000#32)))
          (broadcastInDim S50000 ![] bcast_S_S50000 (constant S_ .f32 0x3F800000#32)))))

/-- The all-zero feature array. -/
def zeros : (⟨S50000x256, .f32⟩ : BufTy).Contents (Elt F) :=
  broadcastInDim S50000x256 ![] bcast_S_S50000x256 (constant S_ .f32 0x00000000#32)

end Cert.KernelIdeal.Gen.Agg

end
-- ==== Proof.IdealResult.lean ====
/-
  The kernel program's result. After the region the host lines cut the stacked projection array into its three slabs,
  run the mean aggregation on each with that relation's edge lists, add the three to a zero array one after the other,
  and clamp at zero. Read from the region's exit — the stacked array at the function the blocks make up, the edge lists at
  their launch contents, which no line writes — the result is that expression of the arguments.
-/
import proofs.«121962_j15994458210645_1_alg».proof.Proof.IdealStacked
import proofs.«121962_j15994458210645_1_alg».proof.Proof.IdealRelation
import Idealize.ShloMosaic.Lib.StableHlo.Run

set_option maxRecDepth 16384

noncomputable section

namespace Cert.KernelIdeal.Gen.Result

open Idealize.ShloMosaic Idealize.ShloMosaic.TcCoe Idealize.ShloMosaic.StableHlo
open Idealize.SL Idealize.SL.Sem
open Cert.KernelIdeal.Around Cert.KernelIdeal.Gen.Region Cert.KernelIdeal.Gen.Agg

variable {F : FTy → Type} [FloatOps F]

/-- Slab `r` of the stacked array as a feature array: the slice at offset `r` on the leading axis, its unit axis dropped. -/
def slab0 (X : (⟨S3x50000x256, .f32⟩ : BufTy).Contents (Elt F)) : (⟨S50000x256, .f32⟩ : BufTy).Contents (Elt F) :=
  shapeCast S50000x256 (extractStridedSlice S1x50000x256 ![0, 0, 0] X slices_S3x50000x256_S1x50000x256_0_0_0) shapeCasts_S1x50000x256_S50000x256
def slab1 (X : (⟨S3x50000x256, .f32⟩ : BufTy).Contents (Elt F)) : (⟨S50000x256, .f32⟩ : BufTy).Contents (Elt F) :=
  shapeCast S50000x256 (extractStridedSlice S1x50000x256 ![1, 0, 0] X slices_S3x50000x256_S1x50000x256_1_0_0) shapeCasts_S1x50000x256_S50000x256
def slab2 (X : (⟨S3x50000x256, .f32⟩ : BufTy).Contents (Elt F)) : (⟨S50000x256, .f32⟩ : BufTy).Contents (Elt F) :=
  shapeCast S50000x256 (extractStridedSlice S1x50000x256 ![2, 0, 0] X slices_S3x50000x256_S1x50000x256_2_0_0) shapeCasts_S1x50000x256_S50000x256

/-- The lines after the region as one expression of the stacked array and the six edge lists. -/
def aggregated (X : (⟨S3x50000x256, .f32⟩ : BufTy).Contents (Elt F))
    (s0 d0 s1 d1 s2 d2 : (⟨S500000, .i32⟩ : BufTy).Contents (Elt F)) : (⟨S50000x256, .f32⟩ : BufTy).Contents (Elt F) :=
  maximumf (addf (addf (addf zeros (relation (slab0 X) s0 d0)) (relation (slab1 X) s1 d1)) (relation (slab2 X) s2 d2)) zeros

set_option maxHeartbeats 40000000 in
/-- The eighty-five lines, from any contents `W` of the buffers: the result buffer ends at `aggregated` of `W`'s stacked
    array and edge lists. -/
theorem tail_value (W : Valuation τ sig (Elt F)) :
    StableHlo.after (hostOps1 ++ hostOps1_1) W (Proc.devRef (τ := τ) .tc main_v77)
      = aggregated (W (Proc.devRef (τ := τ) .tc main_v11)) (W (Proc.devRef (τ := τ) .tc main_arg1)) (W (Proc.devRef (τ := τ) .tc main_arg2)) (W (Proc.devRef (τ := τ) .tc main_arg3)) (W (Proc.devRef (τ := τ) .tc main_arg4)) (W (Proc.devRef (τ := τ) .tc main_arg5)) (W (Proc.devRef (τ := τ) .tc main_arg6)) := by
  simp only [hostOps1, hostOps1_1, List.cons_append, List.nil_append]
  after_results_simp <;> rfl <;> (unfold aggregated relation slab0 slab1 slab2 zeros; rfl)

variable (m : (ℓ : Loc nD τ sig) → Buf (Elt Ideal) ℓ)

/-- An argument the region does not stage is, at the region's exit, at its launch contents. -/
theorem exit_arg (c : Dev nD) (r : Ref sig .tc) (h0 : r ∉ written0) (ha : ∀ w, Pipeline.arrRef spec0 w ≠ r) :
    Pipeline.withArrays spec0 c (V0 m c) (fun w => (dats (F := Ideal) m 0 c).arrAt w cfg0.N) (Proc.devRef .tc r)
      = m ((c.tc : Thread nD τ).loc r) :=
  (Pipeline.withArrays_of_ne spec0 c (V0 m c) _ r ha).trans (V_of_not_written m c r h0)

/-- The kernel program's result buffer at the end, as an expression of the region's three staged arrays and the edge lists. -/
theorem result_eq (c : Dev nD) :
    Pipeline.afterTail₀ cfgs (dats (F := Ideal) m) 0 (V0 m) tailOps c main_v77
      = aggregated (Stacked.stacked (V m c main_v0) (V m c main_v5) (V m c main_v10)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  rw [show (tailOps (F := Ideal)).flatten = hostOps1 ++ hostOps1_1 from by
    simp only [List.flatten_cons, List.flatten_nil, List.append_nil]]
  rw [tail_value]
  rw [show Pipeline.withArrays spec0 c (V0 m c) (fun w => (dats (F := Ideal) m 0 c).arrAt w cfg0.N) (Proc.devRef (τ := τ) .tc main_v11)
        = Stacked.stacked (V m c main_v0) (V m c main_v5) (V m c main_v10) from
      (Pipeline.withArrays_arr spec0 launch0.win.arr_inj c (V0 m c) _ (3 : Fin 4)).trans (Stacked.final m c),
    exit_arg m c main_arg1 (by decide) (by decide),
    exit_arg m c main_arg2 (by decide) (by decide),
    exit_arg m c main_arg3 (by decide) (by decide),
    exit_arg m c main_arg4 (by decide) (by decide),
    exit_arg m c main_arg5 (by decide) (by decide),
    exit_arg m c main_arg6 (by decide) (by decide)]

end Cert.KernelIdeal.Gen.Result

end
-- ==== Proof.IdealEntry.lean ====
/-
  What the region is handed. The eleven lines before it change the node features' float format; stack the three weight
  matrices along a new leading axis and change their format; and stack the three bias rows, then give the stack a unit
  middle axis. So the region's three input arrays are these expressions of the program's arguments.
-/
import proofs.«121962_j15994458210645_1_alg».proof.Proof.IdealAround
import Idealize.ShloMosaic.Lib.StableHlo.Run
import Idealize.ShloMosaic.PureOps.Ideal.Laws

set_option maxRecDepth 16384

noncomputable section

namespace Cert.KernelIdeal.Gen.Entry

open Idealize.ShloMosaic Idealize.ShloMosaic.TcCoe Idealize.ShloMosaic.StableHlo
open Idealize.SL Idealize.SL.Sem
open Cert.KernelIdeal.Around

/-- One more round of reading each line's result at its own buffer and at the others, once the operands of a line
    with several operands have been told apart. -/
local macro "results_again" : tactic =>
  `(tactic| repeat (first
       | rw [nullary_result] | rw [unary_result] | rw [binary_result] | rw [ternary_result] | rw [reshape_result] | rw [nary_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)
       | (rw [nary_result_ne]; rotate_left; decide)))

variable {F : FTy → Type} [FloatOps F]
variable (m : (ℓ : Loc nD τ sig) → Buf (Elt F) ℓ)

/-- The three weight matrices stacked along a new leading axis. -/
def weightStack (W0 W1 W2 : (⟨S256x256, .f32⟩ : BufTy).Contents (Elt F)) : (⟨S3x256x256, .f32⟩ : BufTy).Contents (Elt F) :=
  concatenate S3x256x256 0
    [⟨S1x256x256, broadcastInDim S1x256x256 ![1, 2] bcast_S256x256_S1x256x256_1_2 W0⟩,
     ⟨S1x256x256, broadcastInDim S1x256x256 ![1, 2] bcast_S256x256_S1x256x256_1_2 W1⟩,
     ⟨S1x256x256, broadcastInDim S1x256x256 ![1, 2] bcast_S256x256_S1x256x256_1_2 W2⟩]
    concatenates_S1x256x256_S1x256x256_S1x256x256_S3x256x256_d0

/-- The three bias rows stacked along a new leading axis. -/
def biasStack (b0 b1 b2 : (⟨S256, .f32⟩ : BufTy).Contents (Elt F)) : (⟨S3x256, .f32⟩ : BufTy).Contents (Elt F) :=
  concatenate S3x256 0
    [⟨S1x256, broadcastInDim S1x256 ![1] bcast_S256_S1x256_1 b0⟩,
     ⟨S1x256, broadcastInDim S1x256 ![1] bcast_S256_S1x256_1 b1⟩,
     ⟨S1x256, broadcastInDim S1x256 ![1] bcast_S256_S1x256_1 b2⟩]
    concatenates_S1x256_S1x256_S1x256_S3x256_d0

/-- The feature window's array: the features in the narrower float format. -/
theorem features_eq (c : Dev nD) :
    V m c main_v0 = truncf .bf16 (m ((c : Thread nD τ).loc main_arg0)) bitsLt_bf16_f32 := by
  show StableHlo.after hostOps0 (fun b => m (c, b)) (Proc.devRef .tc main_v0) = _
  after_results

set_option maxHeartbeats 4000000 in
/-- The weight window's array: the weight stack in the narrower float format. -/
theorem weights_eq (c : Dev nD) :
    V m c main_v5 = truncf .bf16 (weightStack (m ((c : Thread nD τ).loc main_arg7)) (m ((c : Thread nD τ).loc main_arg9)) (m ((c : Thread nD τ).loc main_arg11))) bitsLt_bf16_f32 := by
  show StableHlo.after hostOps0 (fun b => m (c, b)) (Proc.devRef .tc main_v5) = _
  after_results
  beta_reduce
  simp only [Matrix.cons_val_zero, Matrix.cons_val_one, Matrix.cons_val_two, Matrix.head_cons, Matrix.tail_cons]
  results_again
  rfl

set_option maxHeartbeats 4000000 in
/-- The bias window's array: the bias stack with a unit middle axis. -/
theorem biases_eq (c : Dev nD) :
    V m c main_v10 = shapeCast S3x1x256 (biasStack (m ((c : Thread nD τ).loc main_arg8)) (m ((c : Thread nD τ).loc main_arg10)) (m ((c : Thread nD τ).loc main_arg12))) shapeCasts_S3x256_S3x1x256 := by
  show StableHlo.after hostOps0 (fun b => m (c, b)) (Proc.devRef .tc main_v10) = _
  after_results
  beta_reduce
  simp only [Matrix.cons_val_zero, Matrix.cons_val_one, Matrix.cons_val_two, Matrix.head_cons, Matrix.tail_cons]
  results_again
  rfl

end Cert.KernelIdeal.Gen.Entry

end
-- ==== Proof.RefProjection.lean ====
/-
  The reference program read back. Its result is the clamp at zero of the sum of three relations' mean aggregations, each
  applied to that relation's projection  features · W + b  (a row of biases added to every row of the product). Element
  (n, d) of a projection is  Σₖ x(n, k) · W(k, d) + b(d).
-/
import proofs.«121962_j15994458210645_1_alg».proof.Proof.Gen.ReferenceIdeal.Read
import Idealize.ShloMosaic.Lib.ValueIdx

set_option maxRecDepth 16384

noncomputable section

namespace Cert.ReferenceIdeal.Gen.Agg

open Idealize.ShloMosaic

variable {F : FTy → Type} [FloatOps F]

/-- One relation's mean aggregation of a projected feature array `P` along its edges: gather row `src e` of `P` for each
    edge `e` (a negative index counted from the end), add the gathered rows into row `dst e`, and divide each row by
    the number of edges arriving at it, or by one where none does. -/
def relation (P : (⟨S50000x256, .f32⟩ : BufTy).Contents (Elt F)) (src dst : (⟨S500000, .i32⟩ : BufTy).Contents (Elt F)) :
    (⟨S50000x256, .f32⟩ : BufTy).Contents (Elt F) :=
  Host.divf
    (Host.scatterAdd scatter_S50000x256_S500000x1_S500000x256_1_0_0_1
      (broadcastInDim S50000x256 ![] bcast_S_S50000x256 (constant S_ .f32 0x00000000#32))
      (broadcastInDim S500000x1 ![0] bcast_S500000_S500000x1_0 dst)
      (Host.gather gather_S50000x256_S500000x1_S500000x256_1_0_n_n_0_1_1256 P
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S500000x1_S500000_n_0_0_1
            (broadcastInDim S50000 ![] bcast_S_S50000 (constant S_ .f32 0x00000000#32))
            (broadcastInDim S500000x1 ![0] bcast_S500000_S500000x1_0 dst)
            (broadcastInDim S500000 ![] bcast_S_S500000 (constant S_ .f32 0x3F800000#32)))
          (broadcastInDim S50000 ![] bcast_S_S50000 (constant S_ .f32 0x3F800000#32)))))

/-- The all-zero feature array. -/
def zeros : (⟨S50000x256, .f32⟩ : BufTy).Contents (Elt F) :=
  broadcastInDim S50000x256 ![] bcast_S_S50000x256 (constant S_ .f32 0x00000000#32)

end Cert.ReferenceIdeal.Gen.Agg

namespace Cert.ReferenceIdeal.Gen.Projection

open Idealize.ShloMosaic Idealize.ShloMosaic.TcCoe Idealize.ShloMosaic.ValueIdx Idealize.SL.Sem
open Cert.ReferenceIdeal.Gen.Agg

/-- The reference's projection of the features by one relation's weights and bias. -/
abbrev proj {F : FTy → Type} [FloatOps F] (x : (⟨S50000x256, .f32⟩ : BufTy).Contents (Elt F)) (W : (⟨S256x256, .f32⟩ : BufTy).Contents (Elt F))
    (b : (⟨S256, .f32⟩ : BufTy).Contents (Elt F)) : (⟨S50000x256, .f32⟩ : BufTy).Contents (Elt F) :=
  Cert.ReferenceIdeal.Read.val_main_v3 (F := F) x W b

set_option maxHeartbeats 4000000 in
/-- The reference's result: the three relations' aggregated projections summed and clamped at zero. -/
theorem result_eq {F : FTy → Type} [FloatOps F] (m : (ℓ : Loc nD τ sig) → Buf (Elt F) ℓ) (c : Dev nD) :
    Cert.ReferenceIdeal.Value.res_main_v71 (F := F) m c
      = maximumf (addf (addf
          (relation (proj (m ((c.tc : Thread nD τ).loc main_arg0)) (m ((c.tc : Thread nD τ).loc main_arg7)) (m ((c.tc : Thread nD τ).loc main_arg8)))
            (m ((c.tc : Thread nD τ).loc main_arg1)) (m ((c.tc : Thread nD τ).loc main_arg2)))
          (relation (proj (m ((c.tc : Thread nD τ).loc main_arg0)) (m ((c.tc : Thread nD τ).loc main_arg9)) (m ((c.tc : Thread nD τ).loc main_arg10)))
            (m ((c.tc : Thread nD τ).loc main_arg3)) (m ((c.tc : Thread nD τ).loc main_arg4))))
          (relation (proj (m ((c.tc : Thread nD τ).loc main_arg0)) (m ((c.tc : Thread nD τ).loc main_arg11)) (m ((c.tc : Thread nD τ).loc main_arg12)))
            (m ((c.tc : Thread nD τ).loc main_arg5)) (m ((c.tc : Thread nD τ).loc main_arg6)))) zeros := by
  unfold Cert.ReferenceIdeal.Value.res_main_v71
  rfl

/-- Element (n, d) of a projection at the exact values. -/
theorem proj_at (x : (⟨S50000x256, .f32⟩ : BufTy).Contents (Elt Ideal)) (W : (⟨S256x256, .f32⟩ : BufTy).Contents (Elt Ideal))
    (b : (⟨S256, .f32⟩ : BufTy).Contents (Elt Ideal)) (n : Fin 50000) (d : Fin 256) :
    proj (F := Ideal) x W b (ix2 n d) = (∑ k : Fin 256, x (ix2 n k) * W (ix2 k d)) + b (ix1 d) := by
  show Cert.ReferenceIdeal.Read.val_main_v3 (F := Ideal) x W b (ix2 n d) = _
  rw [Cert.ReferenceIdeal.Read.val_main_v3_apply, Cert.ReferenceIdeal.Read.val_main_v0_apply,
    Cert.ReferenceIdeal.Read.val_main_v2_apply, Cert.ReferenceIdeal.Read.val_main_v1_apply]
  refine congrArg₂ (· + ·) (Finset.sum_congr rfl fun k _ => congrArg₂ (· * ·) ?_ ?_) ?_
  · exact congrArg x (funext fun a => Fin.ext (by match a with | ⟨0, _⟩ => rfl | ⟨1, _⟩ => rfl))
  · exact congrArg W (funext fun a => Fin.ext (by match a with | ⟨0, _⟩ => rfl | ⟨1, _⟩ => rfl))
  · exact congrArg b (funext fun a => Fin.ext (by match a with | ⟨0, _⟩ => rfl))

end Cert.ReferenceIdeal.Gen.Projection

end
-- ==== Proof.Bridge.lean ====
/-
  Why the two programs compute one function. Both end with the same aggregation of three projected feature arrays;
  the kernel program computes the three projections at once, as the slabs of one stacked array  Σₖ x(n, k) · w(r, k, d) + b(r, 0, d)
  over the stacked weights and biases, and adds the aggregated relations to a zero array one by one, where the reference
  computes each projection  Σₖ x(n, k) · W_r(k, d) + b_r(d)  by itself and adds the three. Member r of a stack of three is
  the r-th operand, a change of float format is the identity at the exact values, and adding to zero changes nothing on
  the extended reals, so slab r of the kernel's array is the reference's r-th projection and the two results agree. No
  step needs the inputs to be finite.
-/
import proofs.«121962_j15994458210645_1_alg».proof.Proof.IdealResult
import proofs.«121962_j15994458210645_1_alg».proof.Proof.IdealEntry
import proofs.«121962_j15994458210645_1_alg».proof.Proof.RefProjection
import Idealize.ShloMosaic.Lib.ValueIdx
import Idealize.ShloMosaic.Lib.Pipeline.Value

set_option maxRecDepth 16384

noncomputable section

namespace Cert.KernelIdeal.Gen.Bridge

open Idealize.ShloMosaic Idealize.ShloMosaic.TcCoe Idealize.ShloMosaic.ValueIdx
open Idealize.SL Idealize.SL.Sem
open Cert.KernelIdeal.Gen

/-- Member 0 of the weight stack, at an element. -/
theorem weightStack_at0 (W0 W1 W2 : FVec Ideal S256x256 .f32) (k d : Fin 256) :
    Entry.weightStack (F := Ideal) W0 W1 W2 (ix3 (0 : Fin 3) k d) = W0 (ix2 k d) := by
  unfold Entry.weightStack
  refine (concatenate_apply_piece (0 : Fin S3x256x256.rank) _ _ (ix3 (0 : Fin 3) k d) 0 (by show 0 < 3; decide) S1x256x256 _ rfl rfl 0 (by rfl)
    (ix3 (0 : Fin 1) k d)
    (fun b hb => by match b with | ⟨0, _⟩ => exact absurd (Fin.ext rfl) hb | ⟨1, _⟩ => rfl | ⟨2, _⟩ => rfl) (by rfl)).trans ?_
  exact broadcastInDim_apply ![1, 2] bcast_S256x256_S1x256x256_1_2 W0 (ix3 (0 : Fin 1) k d) (ix2 k d) (fun a => by
    match a with
    | ⟨0, _⟩ => (show k.val = if (256 : Nat) = 1 then 0 else k.val; rw [if_neg (by decide)])
    | ⟨1, _⟩ => (show d.val = if (256 : Nat) = 1 then 0 else d.val; rw [if_neg (by decide)]))

/-- Member 0 of the bias stack, through its unit middle axis, at an element. -/
theorem biasStack_at0 (b0 b1 b2 : FVec Ideal S256 .f32) (d : Fin 256) :
    shapeCast S3x1x256 (Entry.biasStack (F := Ideal) b0 b1 b2) shapeCasts_S3x256_S3x1x256 (ix3 (0 : Fin 3) (0 : Fin 1) d) = b0 (ix1 d) := by
  refine (shapeCast_apply _ _ (ix3 (0 : Fin 3) (0 : Fin 1) d) (ix2 (0 : Fin 3) d) (by
    rw [Shape.rowMajor_val_two, Shape.rowMajor_val_three]
    show 0 * 256 + d.val = (0 * 1 + 0) * 256 + d.val
    omega)).trans ?_
  unfold Entry.biasStack
  refine (concatenate_apply_piece (0 : Fin S3x256.rank) _ _ (ix2 (0 : Fin 3) d) 0 (by show 0 < 3; decide) S1x256 _ rfl rfl 0 (by rfl)
    (ix2 (0 : Fin 1) d)
    (fun b hb => by match b with | ⟨0, _⟩ => exact absurd (Fin.ext rfl) hb | ⟨1, _⟩ => rfl) (by rfl)).trans ?_
  exact broadcastInDim_apply ![1] bcast_S256_S1x256_1 b0 (ix2 (0 : Fin 1) d) (ix1 d) (fun a => by
    match a with
    | ⟨0, _⟩ => (show d.val = if (256 : Nat) = 1 then 0 else d.val; rw [if_neg (by decide)]))

/-- Slab 0 of a stacked array, at an element. -/
theorem slab0_at (X : FVec Ideal S3x50000x256 .f32) (n : Fin 50000) (d : Fin 256) :
    Result.slab0 (F := Ideal) X (ix2 n d) = X (ix3 (0 : Fin 3) n d) := by
  unfold Result.slab0
  refine (shapeCast_apply _ _ (ix2 n d) (ix3 (0 : Fin 1) n d) (by
    rw [Shape.rowMajor_val_two, Shape.rowMajor_val_three]
    show (0 * 50000 + n.val) * 256 + d.val = n.val * 256 + d.val
    omega)).trans ?_
  refine extractStridedSlice_apply ![0, 0, 0] X _ (ix3 (0 : Fin 1) n d) (ix3 (0 : Fin 3) n d) ?_
  intro a
  match a with
  | ⟨0, _⟩ => rfl
  | ⟨1, _⟩ => show n.val = 0 + n.val; omega
  | ⟨2, _⟩ => show d.val = 0 + d.val; omega

/-- Slab 0 of the kernel's stacked output, at the arrays the region is handed, is the reference's projection by
    relation 0's weights and bias: element (n, d) of both is  Σₖ x(n, k) · W(k, d) + b(d). -/
theorem slab0_stacked (x : FVec Ideal S50000x256 .f32)
    (W0 W1 W2 : FVec Ideal S256x256 .f32) (b0 b1 b2 : FVec Ideal S256 .f32) :
    Result.slab0 (F := Ideal) (Stacked.stacked (truncf .bf16 x bitsLt_bf16_f32)
        (truncf .bf16 (Entry.weightStack (F := Ideal) W0 W1 W2) bitsLt_bf16_f32)
        (shapeCast S3x1x256 (Entry.biasStack (F := Ideal) b0 b1 b2) shapeCasts_S3x256_S3x1x256))
      = Cert.ReferenceIdeal.Gen.Projection.proj (F := Ideal) x W0 b0 := by
  funext i
  obtain ⟨n, d, rfl⟩ : ∃ (n : Fin 50000) (d : Fin 256), i = ix2 n d := ⟨i 0, i 1, eq_ix2 i⟩
  refine (slab0_at _ n d).trans ?_
  refine Eq.trans ?_ (Cert.ReferenceIdeal.Gen.Projection.proj_at x W0 b0 n d).symm
  unfold Stacked.stacked
  refine congrArg₂ (· + ·) (Finset.sum_congr rfl fun k _ => congrArg₂ (· * ·) rfl ?_) ?_
  · exact weightStack_at0 W0 W1 W2 k d
  · exact biasStack_at0 b0 b1 b2 d

/-- Member 1 of the weight stack, at an element. -/
theorem weightStack_at1 (W0 W1 W2 : FVec Ideal S256x256 .f32) (k d : Fin 256) :
    Entry.weightStack (F := Ideal) W0 W1 W2 (ix3 (1 : Fin 3) k d) = W1 (ix2 k d) := by
  unfold Entry.weightStack
  refine (concatenate_apply_piece (0 : Fin S3x256x256.rank) _ _ (ix3 (1 : Fin 3) k d) 1 (by show 1 < 3; decide) S1x256x256 _ rfl rfl 1 (by rfl)
    (ix3 (0 : Fin 1) k d)
    (fun b hb => by match b with | ⟨0, _⟩ => exact absurd (Fin.ext rfl) hb | ⟨1, _⟩ => rfl | ⟨2, _⟩ => rfl) (by rfl)).trans ?_
  exact broadcastInDim_apply ![1, 2] bcast_S256x256_S1x256x256_1_2 W1 (ix3 (0 : Fin 1) k d) (ix2 k d) (fun a => by
    match a with
    | ⟨0, _⟩ => (show k.val = if (256 : Nat) = 1 then 0 else k.val; rw [if_neg (by decide)])
    | ⟨1, _⟩ => (show d.val = if (256 : Nat) = 1 then 0 else d.val; rw [if_neg (by decide)]))

/-- Member 1 of the bias stack, through its unit middle axis, at an element. -/
theorem biasStack_at1 (b0 b1 b2 : FVec Ideal S256 .f32) (d : Fin 256) :
    shapeCast S3x1x256 (Entry.biasStack (F := Ideal) b0 b1 b2) shapeCasts_S3x256_S3x1x256 (ix3 (1 : Fin 3) (0 : Fin 1) d) = b1 (ix1 d) := by
  refine (shapeCast_apply _ _ (ix3 (1 : Fin 3) (0 : Fin 1) d) (ix2 (1 : Fin 3) d) (by
    rw [Shape.rowMajor_val_two, Shape.rowMajor_val_three]
    show 1 * 256 + d.val = (1 * 1 + 0) * 256 + d.val
    omega)).trans ?_
  unfold Entry.biasStack
  refine (concatenate_apply_piece (0 : Fin S3x256.rank) _ _ (ix2 (1 : Fin 3) d) 1 (by show 1 < 3; decide) S1x256 _ rfl rfl 1 (by rfl)
    (ix2 (0 : Fin 1) d)
    (fun b hb => by match b with | ⟨0, _⟩ => exact absurd (Fin.ext rfl) hb | ⟨1, _⟩ => rfl) (by rfl)).trans ?_
  exact broadcastInDim_apply ![1] bcast_S256_S1x256_1 b1 (ix2 (0 : Fin 1) d) (ix1 d) (fun a => by
    match a with
    | ⟨0, _⟩ => (show d.val = if (256 : Nat) = 1 then 0 else d.val; rw [if_neg (by decide)]))

/-- Slab 1 of a stacked array, at an element. -/
theorem slab1_at (X : FVec Ideal S3x50000x256 .f32) (n : Fin 50000) (d : Fin 256) :
    Result.slab1 (F := Ideal) X (ix2 n d) = X (ix3 (1 : Fin 3) n d) := by
  unfold Result.slab1
  refine (shapeCast_apply _ _ (ix2 n d) (ix3 (0 : Fin 1) n d) (by
    rw [Shape.rowMajor_val_two, Shape.rowMajor_val_three]
    show (0 * 50000 + n.val) * 256 + d.val = n.val * 256 + d.val
    omega)).trans ?_
  refine extractStridedSlice_apply ![1, 0, 0] X _ (ix3 (0 : Fin 1) n d) (ix3 (1 : Fin 3) n d) ?_
  intro a
  match a with
  | ⟨0, _⟩ => rfl
  | ⟨1, _⟩ => show n.val = 0 + n.val; omega
  | ⟨2, _⟩ => show d.val = 0 + d.val; omega

/-- Slab 1 of the kernel's stacked output, at the arrays the region is handed, is the reference's projection by
    relation 1's weights and bias: element (n, d) of both is  Σₖ x(n, k) · W(k, d) + b(d). -/
theorem slab1_stacked (x : FVec Ideal S50000x256 .f32)
    (W0 W1 W2 : FVec Ideal S256x256 .f32) (b0 b1 b2 : FVec Ideal S256 .f32) :
    Result.slab1 (F := Ideal) (Stacked.stacked (truncf .bf16 x bitsLt_bf16_f32)
        (truncf .bf16 (Entry.weightStack (F := Ideal) W0 W1 W2) bitsLt_bf16_f32)
        (shapeCast S3x1x256 (Entry.biasStack (F := Ideal) b0 b1 b2) shapeCasts_S3x256_S3x1x256))
      = Cert.ReferenceIdeal.Gen.Projection.proj (F := Ideal) x W1 b1 := by
  funext i
  obtain ⟨n, d, rfl⟩ : ∃ (n : Fin 50000) (d : Fin 256), i = ix2 n d := ⟨i 0, i 1, eq_ix2 i⟩
  refine (slab1_at _ n d).trans ?_
  refine Eq.trans ?_ (Cert.ReferenceIdeal.Gen.Projection.proj_at x W1 b1 n d).symm
  unfold Stacked.stacked
  refine congrArg₂ (· + ·) (Finset.sum_congr rfl fun k _ => congrArg₂ (· * ·) rfl ?_) ?_
  · exact weightStack_at1 W0 W1 W2 k d
  · exact biasStack_at1 b0 b1 b2 d

/-- Member 2 of the weight stack, at an element. -/
theorem weightStack_at2 (W0 W1 W2 : FVec Ideal S256x256 .f32) (k d : Fin 256) :
    Entry.weightStack (F := Ideal) W0 W1 W2 (ix3 (2 : Fin 3) k d) = W2 (ix2 k d) := by
  unfold Entry.weightStack
  refine (concatenate_apply_piece (0 : Fin S3x256x256.rank) _ _ (ix3 (2 : Fin 3) k d) 2 (by show 2 < 3; decide) S1x256x256 _ rfl rfl 2 (by rfl)
    (ix3 (0 : Fin 1) k d)
    (fun b hb => by match b with | ⟨0, _⟩ => exact absurd (Fin.ext rfl) hb | ⟨1, _⟩ => rfl | ⟨2, _⟩ => rfl) (by rfl)).trans ?_
  exact broadcastInDim_apply ![1, 2] bcast_S256x256_S1x256x256_1_2 W2 (ix3 (0 : Fin 1) k d) (ix2 k d) (fun a => by
    match a with
    | ⟨0, _⟩ => (show k.val = if (256 : Nat) = 1 then 0 else k.val; rw [if_neg (by decide)])
    | ⟨1, _⟩ => (show d.val = if (256 : Nat) = 1 then 0 else d.val; rw [if_neg (by decide)]))

/-- Member 2 of the bias stack, through its unit middle axis, at an element. -/
theorem biasStack_at2 (b0 b1 b2 : FVec Ideal S256 .f32) (d : Fin 256) :
    shapeCast S3x1x256 (Entry.biasStack (F := Ideal) b0 b1 b2) shapeCasts_S3x256_S3x1x256 (ix3 (2 : Fin 3) (0 : Fin 1) d) = b2 (ix1 d) := by
  refine (shapeCast_apply _ _ (ix3 (2 : Fin 3) (0 : Fin 1) d) (ix2 (2 : Fin 3) d) (by
    rw [Shape.rowMajor_val_two, Shape.rowMajor_val_three]
    show 2 * 256 + d.val = (2 * 1 + 0) * 256 + d.val
    omega)).trans ?_
  unfold Entry.biasStack
  refine (concatenate_apply_piece (0 : Fin S3x256.rank) _ _ (ix2 (2 : Fin 3) d) 2 (by show 2 < 3; decide) S1x256 _ rfl rfl 2 (by rfl)
    (ix2 (0 : Fin 1) d)
    (fun b hb => by match b with | ⟨0, _⟩ => exact absurd (Fin.ext rfl) hb | ⟨1, _⟩ => rfl) (by rfl)).trans ?_
  exact broadcastInDim_apply ![1] bcast_S256_S1x256_1 b2 (ix2 (0 : Fin 1) d) (ix1 d) (fun a => by
    match a with
    | ⟨0, _⟩ => (show d.val = if (256 : Nat) = 1 then 0 else d.val; rw [if_neg (by decide)]))

/-- Slab 2 of a stacked array, at an element. -/
theorem slab2_at (X : FVec Ideal S3x50000x256 .f32) (n : Fin 50000) (d : Fin 256) :
    Result.slab2 (F := Ideal) X (ix2 n d) = X (ix3 (2 : Fin 3) n d) := by
  unfold Result.slab2
  refine (shapeCast_apply _ _ (ix2 n d) (ix3 (0 : Fin 1) n d) (by
    rw [Shape.rowMajor_val_two, Shape.rowMajor_val_three]
    show (0 * 50000 + n.val) * 256 + d.val = n.val * 256 + d.val
    omega)).trans ?_
  refine extractStridedSlice_apply ![2, 0, 0] X _ (ix3 (0 : Fin 1) n d) (ix3 (2 : Fin 3) n d) ?_
  intro a
  match a with
  | ⟨0, _⟩ => rfl
  | ⟨1, _⟩ => show n.val = 0 + n.val; omega
  | ⟨2, _⟩ => show d.val = 0 + d.val; omega

/-- Slab 2 of the kernel's stacked output, at the arrays the region is handed, is the reference's projection by
    relation 2's weights and bias: element (n, d) of both is  Σₖ x(n, k) · W(k, d) + b(d). -/
theorem slab2_stacked (x : FVec Ideal S50000x256 .f32)
    (W0 W1 W2 : FVec Ideal S256x256 .f32) (b0 b1 b2 : FVec Ideal S256 .f32) :
    Result.slab2 (F := Ideal) (Stacked.stacked (truncf .bf16 x bitsLt_bf16_f32)
        (truncf .bf16 (Entry.weightStack (F := Ideal) W0 W1 W2) bitsLt_bf16_f32)
        (shapeCast S3x1x256 (Entry.biasStack (F := Ideal) b0 b1 b2) shapeCasts_S3x256_S3x1x256))
      = Cert.ReferenceIdeal.Gen.Projection.proj (F := Ideal) x W2 b2 := by
  funext i
  obtain ⟨n, d, rfl⟩ : ∃ (n : Fin 50000) (d : Fin 256), i = ix2 n d := ⟨i 0, i 1, eq_ix2 i⟩
  refine (slab2_at _ n d).trans ?_
  refine Eq.trans ?_ (Cert.ReferenceIdeal.Gen.Projection.proj_at x W2 b2 n d).symm
  unfold Stacked.stacked
  refine congrArg₂ (· + ·) (Finset.sum_congr rfl fun k _ => congrArg₂ (· * ·) rfl ?_) ?_
  · exact weightStack_at2 W0 W1 W2 k d
  · exact biasStack_at2 b0 b1 b2 d

/-- Adding a feature array to the zero array leaves it: on the extended reals `0 + x = x` for every `x`, infinite or not. -/
theorem zeros_add (x : FVec Ideal S50000x256 .f32) : addf (Agg.zeros (F := Ideal)) x = x := by
  funext i
  show Agg.zeros (F := Ideal) i + x i = x i
  have hz : Agg.zeros (F := Ideal) i = 0 := by
    unfold Agg.zeros
    refine (broadcastInDim_apply ![] bcast_S_S50000x256 _ i ix0 (fun a => a.elim0)).trans ?_
    show Ideal.ofBits .f32 0x00000000#32 = 0
    exact Ideal.ofBits_zero_f32
  rw [hz, zero_add]

/-- The aggregation is one function, whichever program's names spell it. -/
theorem relation_eq : @Agg.relation Ideal _ = @Cert.ReferenceIdeal.Gen.Agg.relation Ideal _ := rfl
theorem zeros_eq : @Agg.zeros Ideal _ = @Cert.ReferenceIdeal.Gen.Agg.zeros Ideal _ := rfl

end Cert.KernelIdeal.Gen.Bridge

end
-- ==== Proof.lean ====
/-
  A relational graph layer over three relations: for each relation the node features are projected by that relation's
  weights and bias, the projected rows are gathered along the relation's edges, summed onto the edges' destinations and
  averaged; the three averages are added and clamped at zero. The kernel program computes the three projections in one
  tiled matrix-unit region over stacked weights and biases and does the rest on the host; the reference does all of it
  on the host, one relation at a time.

  The certificate: both kernel programs (word-level and exact) run to the end from any memory and leave their thirteen
  arguments unchanged — the region by the pipeline's launch theorem over the body's one whole-block store, the host
  lines because each writes only its own result; the reference likewise by its run read back. The exact kernel program
  is the word-level one's text read at the exact values (no rewrite was applied). And at the exact values the two
  results are equal element by element: slab r of the kernel's stacked array is the reference's r-th projection,
  Σₖ x(n, k) · W_r(k, d) + b_r(d), the aggregation after it is the same function on both sides, and the kernel's leading
  zero summand changes nothing. The equality uses no finiteness of the inputs.
-/
import proofs.«121962_j15994458210645_1_alg».proof.Defs
import proofs.«121962_j15994458210645_1_alg».proof.Proof.BitsRegion
import proofs.«121962_j15994458210645_1_alg».proof.Proof.Bridge
import proofs.«121962_j15994458210645_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Around Cert.KernelIdeal.Gen

/-! ## The frames -/

theorem frame_kernel : Cert.frame_Kernel := fun m ρ _ => Cert.Kernel.Gen.Region.frame (F := Bits) m ρ
theorem frame_kernelIdeal : Cert.frame_KernelIdeal := fun m ρ _ => Cert.KernelIdeal.Gen.Region.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten for the exact reading. -/
theorem preserves : Cert.preserves_Kernel_KernelIdeal := trivial

/-! ## The kernel program's result -/

/-- The exact kernel program's result on core `c`, as a function of the launch memory. -/
def kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v77) :=
  Result.aggregated (Stacked.stacked (V m c Cert.KernelIdeal.main_v0) (V m c Cert.KernelIdeal.main_v5) (V m c Cert.KernelIdeal.main_v10))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- The exact kernel program runs to the end with its result at `kernelResult` and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v77) = kernelResult m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono (fun r h c =>
    ⟨((h c).2 Cert.KernelIdeal.main_v77 (Pipeline.mem_restRefs_of Cert.KernelIdeal.main_v77 (by decide) (by decide))).trans (Result.result_eq m c),
    Region.kept m r h c Cert.KernelIdeal.main_arg0 (by decide) (by decide) (by decide) (by decide),
    Region.kept m r h c Cert.KernelIdeal.main_arg1 (by decide) (by decide) (by decide) (by decide),
    Region.kept m r h c Cert.KernelIdeal.main_arg2 (by decide) (by decide) (by decide) (by decide),
    Region.kept m r h c Cert.KernelIdeal.main_arg3 (by decide) (by decide) (by decide) (by decide),
    Region.kept m r h c Cert.KernelIdeal.main_arg4 (by decide) (by decide) (by decide) (by decide),
    Region.kept m r h c Cert.KernelIdeal.main_arg5 (by decide) (by decide) (by decide) (by decide),
    Region.kept m r h c Cert.KernelIdeal.main_arg6 (by decide) (by decide) (by decide) (by decide),
    Region.kept m r h c Cert.KernelIdeal.main_arg7 (by decide) (by decide) (by decide) (by decide),
    Region.kept m r h c Cert.KernelIdeal.main_arg8 (by decide) (by decide) (by decide) (by decide),
    Region.kept m r h c Cert.KernelIdeal.main_arg9 (by decide) (by decide) (by decide) (by decide),
    Region.kept m r h c Cert.KernelIdeal.main_arg10 (by decide) (by decide) (by decide) (by decide),
    Region.kept m r h c Cert.KernelIdeal.main_arg11 (by decide) (by decide) (by decide) (by decide),
    Region.kept m r h c Cert.KernelIdeal.main_arg12 (by decide) (by decide) (by decide) (by decide)⟩)
    (Region.run_main (F := Ideal) m ρ)

/-! ## The two results are equal -/

/-- From memories that agree on the thirteen arguments, the reference's result is the kernel program's. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v71 (F := Ideal) m' c = kernelResult m c := by
  rw [Cert.ReferenceIdeal.Gen.Projection.result_eq m' c, a0, a1, a2, a3, a4, a5, a6, a7, a8, a9, a10, a11, a12]
  unfold kernelResult Result.aggregated
  rw [Entry.features_eq m c, Entry.weights_eq m c, Entry.biases_eq m c,
    Bridge.slab0_stacked, Bridge.slab1_stacked, Bridge.slab2_stacked, Bridge.zeros_add]
  rfl

theorem algebraic : Cert.algebraic_KernelIdeal_ReferenceIdeal := by
  intro m ρ m' ρ' _ hagree
  refine ⟨fun c => kernelResult m c, kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  exact results_equal m m' c a0 a1 a2 a3 a4 a5 a6 a7 a8 a9 a10 a11 a12

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
